-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8 : Shape := ⟨1, ![8]⟩
abbrev S8x64x512 : Shape := ⟨3, ![8, 64, 512]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg6 : FVec F S1024x512 .f32) (main_arg7 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg6
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x256x512 .f32) (main_arg1 : IVec S8 32) (main_arg2 : FVec F S8x64x512 .f32) (main_arg3 : IVec S8 32) (main_arg4 : FVec F S512x1024 .f32) (main_arg5 : FVec F S1024 .f32) (main_arg6 : FVec F S1024x512 .f32) (main_arg7 : FVec F S512 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg2
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S512x1024 .f32 := Host.absf main_arg4
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg7 main_v13 main_v16
-- ==== Kernel.lean ====
abbrev S8x256x512 : Shape := ⟨3, ![8, 256, 512]⟩
abbrev S8 : Shape := ⟨1, ![8]⟩
abbrev S8x64x512 : Shape := ⟨3, ![8, 64, 512]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S8x256x64x512 : Shape := ⟨4, ![8, 256, 64, 512]⟩
abbrev S1x32x512 : Shape := ⟨3, ![1, 32, 512]⟩
abbrev S1x64x512 : Shape := ⟨3, ![1, 64, 512]⟩
abbrev S1x32x64x512 : Shape := ⟨4, ![1, 32, 64, 512]⟩
abbrev S32x512 : Shape := ⟨2, ![32, 512]⟩
abbrev S64x512 : Shape := ⟨2, ![64, 512]⟩
abbrev S32x1x512 : Shape := ⟨3, ![32, 1, 512]⟩
abbrev S32x64x512 : Shape := ⟨3, ![32, 64, 512]⟩
abbrev S2048x512 : Shape := ⟨2, ![2048, 512]⟩
abbrev S2048x1024 : Shape := ⟨2, ![2048, 1024]⟩
abbrev S1x1024 : Shape := ⟨2, ![1, 1024]⟩
abbrev S1x512 : Shape := ⟨2, ![1, 512]⟩

abbrev nBuf : Space → Nat
  | .hbm => 11
  | .vmem => 10
  | .smem => 0
  | _ => 0

abbrev bufTy : (tb : Table) → Fin (tcTables nBuf tb) → BufTy
  | .hbm, ⟨0, _⟩ => ⟨S8x256x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S512x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x1024, .bf16⟩
  | .hbm, ⟨9, _⟩ => ⟨S1024x512, .bf16⟩
  | .hbm, ⟨10, _⟩ => ⟨S8x256x64x512, .f32⟩
  | .local _ .vmem, ⟨0, _⟩ => ⟨S1x32x512, .f32⟩
  | .local _ .vmem, ⟨1, _⟩ => ⟨S1x32x512, .f32⟩
  | .local _ .vmem, ⟨2, _⟩ => ⟨S1x64x512, .f32⟩
  | .local _ .vmem, ⟨3, _⟩ => ⟨S1x64x512, .f32⟩
  | .local _ .vmem, ⟨4, _⟩ => ⟨S512x1024, .bf16⟩
  | .local _ .vmem, ⟨5, _⟩ => ⟨S1024, .f32⟩
  | .local _ .vmem, ⟨6, _⟩ => ⟨S1024x512, .bf16⟩
  | .local _ .vmem, ⟨7, _⟩ => ⟨S512, .f32⟩
  | .local _ .vmem, ⟨8, _⟩ => ⟨S1x32x64x512, .f32⟩
  | .local _ .vmem, ⟨9, _⟩ => ⟨S1x32x64x512, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  shapeCasts_S32x64x512_S2048x512 : S32x64x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S2048x512_S32x64x512 : S2048x512.ShapeCasts S32x64x512
  inb_S1x32x64x512_S1x32x64x512_0_0_0_0 : ∀ a, (![0, 0, 0, 0] : Fin 4 → Nat) a + S1x32x64x512.size a ≤ S1x32x64x512.size a
  h_S1x32x64x512 : 0 < S1x32x64x512.numel
  shapeCasts_S1x32x64x512_S32x64x512 : S1x32x64x512.ShapeCasts S32x64x512
  shapeCasts_S32x64x512_S1x32x64x512 : S32x64x512.ShapeCasts S1x32x64x512
  dot_S2048x512_S512x1024_S2048x1024_1_0_0_1_n_n_wf : DotDims.WF S2048x512 S512x1024 S2048x1024 [1] [0] [0] [1] [] []
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S8x256x512.size a
  hwx0_0 : ∀ i : grid0.Coords, EltTy.bits .f32 = 32 ∨ (Rect.block (s := S8x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x64x512.size a ≤ S8x256x64x512.size a
  hwx0_6 : ∀ i : grid0.Coords, EltTy.bits .f32 = 32 ∨ (Rect.block (s := S8x256x64x512) S1x32x64x512.size (cc0_transform_6 i) (hinb0_6 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x32x64x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8 : Shape := ⟨1, ![8]⟩
abbrev S8x64x512 : Shape := ⟨3, ![8, 64, 512]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S8x256x64x1024 : Shape := ⟨4, ![8, 256, 64, 1024]⟩
abbrev S1x1x1x1024 : Shape := ⟨4, ![1, 1, 1, 1024]⟩
abbrev S1x1x1x512 : Shape := ⟨4, ![1, 1, 1, 512]⟩

abbrev nBuf : Space → Nat
  | .hbm => 22
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S512x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S8x256x1x512, .f32⟩
  | .hbm, ⟨9, _⟩ => ⟨S8x1x64x512, .f32⟩
  | .hbm, ⟨10, _⟩ => ⟨S8x256x64x512, .f32⟩
  | .hbm, ⟨11, _⟩ => ⟨S8x256x64x512, .f32⟩
  | .hbm, ⟨12, _⟩ => ⟨S8x256x64x512, .f32⟩
  | .hbm, ⟨13, _⟩ => ⟨S8x256x64x1024, .f32⟩
  | .hbm, ⟨14, _⟩ => ⟨S1x1x1x1024, .f32⟩
  | .hbm, ⟨15, _⟩ => ⟨S8x256x64x1024, .f32⟩
  | .hbm, ⟨16, _⟩ => ⟨S8x256x64x1024, .f32⟩
  | .hbm, ⟨17, _⟩ => ⟨S8x256x64x1024, .f32⟩
  | .hbm, ⟨18, _⟩ => ⟨S8x256x64x512, .f32⟩
  | .hbm, ⟨19, _⟩ => ⟨S1x1x1x512, .f32⟩
  | .hbm, ⟨20, _⟩ => ⟨S8x256x64x512, .f32⟩
  | .hbm, ⟨21, _⟩ => ⟨S8x256x64x512, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  bcast_S512_S1x1x1x512_3 : S512.BroadcastsInDim S1x1x1x512 (![3] : Fin 1 → Fin S1x1x1x512.rank)
  bcast_S1x1x1x512_S8x256x64x512_0_1_2_3 : S1x1x1x512.BroadcastsInDim S8x256x64x512 (![0, 1, 2, 3] : Fin 4 → Fin S8x256x64x512.rank)
  dot_S8x256x64x512_S512x1024_S8x256x64x1024_3_0_012_1_n_n_wf : DotDims.WF S8x256x64x512 S512x1024 S8x256x64x1024 [3] [0] [0, 1, 2] [1] [] []
  dot_S8x256x64x1024_S1024x512_S8x256x64x512_3_0_012_1_n_n_wf : DotDims.WF S8x256x64x1024 S1024x512 S8x256x64x512 [3] [0] [0, 1, 2] [1] [] []

variable [Facts₀]

def dot_S8x256x64x512_S512x1024_S8x256x64x1024_3_0_012_1_n_n : DotDims S8x256x64x512 S512x1024 S8x256x64x1024 where
  lhsContracting := [3]
  rhsContracting := [0]
  lhsNonContracting := [0, 1, 2]
  rhsNonContracting := [1]
  lhsBatch := []
  rhsBatch := []
  wf := dot_S8x256x64x512_S512x1024_S8x256x64x1024_3_0_012_1_n_n_wf
def dot_S8x256x64x1024_S1024x512_S8x256x64x512_3_0_012_1_n_n : DotDims S8x256x64x1024 S1024x512 S8x256x64x512 where
  lhsContracting := [3]
  rhsContracting := [0]
  lhsNonContracting := [0, 1, 2]
  rhsNonContracting := [1]
  lhsBatch := []
  rhsBatch := []
  wf := dot_S8x256x64x1024_S1024x512_S8x256x64x512_3_0_012_1_n_n_wf

class Facts : Prop extends Facts₀ where

variable [Facts]
-- ==== Proof.LibOuterSumLayout.lean ====
/-
  Layout operations of a broadcast outer sum flattened to rows, each read at an index given by coordinates.

  A matrix `[a, c]` becomes a stack `[a, 1, c]` by a shape cast; a stack with a unit middle axis `[a, 1, c]`, or a
  unit leading axis `[1, b, c]`, is broadcast to `[a, b, c]`; and a stack `[a, b, c]` is flattened to the matrix
  `[a · b, c]` whose row `i · b + j` is the stack's row `(i, j)`, or a matrix of `a · b` rows is folded back.
  A shape cast keeps the row-major position; a broadcast reads coordinate `0` on the operand's unit axes.
-/
import Idealize.ShloMosaic.Lib.ValueLayout

namespace Idealize.ShloMosaic.ValueIdx

open Idealize.ShloMosaic

variable {α : Type}

/-- An `[a, c]` array cast to `[a, 1, c]` reads, at `(i, u, k)`, the operand at `(i, k)`, whatever the unit
    coordinate `u`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, c]` stack flattened to `[n, c]` (`n = a · b`) reads, at row `r = i · b + j` and column `k`, the
    stack at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (i : Fin a) (j : Fin b) (k : Fin c)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` matrix (`n = a · b`) folded to the stack `[a, b, c]` reads, at `(i, j, k)`, the matrix at row
    `r = i · b + j` and column `k`. -/
theorem shapeCast_nc_abc_apply {a b c n : ℕ} (x : (⟨2, ![n, c]⟩ : Shape).Idx → α)
    (h : (⟨2, ![n, c]⟩ : Shape).ShapeCasts ⟨3, ![a, b, c]⟩) (r : Fin n) (i : Fin a) (j : Fin b) (k : Fin c)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Idealize.ShloMosaic.ValueIdx
-- ==== Proof.Payload.lean ====
/-
  The kernel body's one stored value, read at an index of its block.

  At a grid point the body holds a block of 32 source rows `x0[0, p, ·]`, the batch entry's 64 target rows
  `x1[0, q, ·]`, and the whole of `W₁`, `b₁`, `W₂`, `b₂`. It forms the 32 × 64 joint vectors `x0[0, p, ·] + x1[0, q, ·]`,
  lays them out as the 2048 rows `r = p · 64 + q` of a matrix, multiplies by `W₁` into a zero accumulator, adds `b₁` to
  every row, applies `tanh`, multiplies by `W₂` into a zero accumulator, adds `b₂` to every row and folds the 2048
  rows back to `(p, q)`. On the extended reals a change of float format is the identity and a product into a zero
  accumulator is the plain sum over the contracted coordinate, so the stored value at `(0, p, q, d)` is

      (Σ_h tanh((Σ_k (x0[0, p, k] + x1[0, q, k]) · W₁[k, h]) + b₁[h]) · W₂[h, d]) + b₂[d].
-/
import proofs.«110016_j57526791962920_1_alg».proof.Proof.Gen.KernelIdeal.Skeleton
import proofs.«110016_j57526791962920_1_alg».proof.Proof.LibOuterSumLayout
import Idealize.ShloMosaic.PureOps.Ideal.Laws
import Idealize.ShloMosaic.Lib.ValueIdx

noncomputable section

namespace Cert.KernelIdeal.Body

open Cert.KernelIdeal Cert.KernelIdeal.Gen
open Idealize.ShloMosaic Idealize.ShloMosaic.ValueIdx

/-! ## The two products: rows times columns, summed over the one contracted coordinate -/

/-- The first product's dimension numbers: `[2048, 512] × [512, 1024]`, contracting the 512. -/
abbrev dotW1 : DotDims S2048x512 S512x1024 S2048x1024 := dot_S2048x512_S512x1024_S2048x1024_1_0_0_1_n_n
/-- The second product's: `[2048, 1024] × [1024, 512]`, contracting the 1024. -/
abbrev dotW2 : DotDims S2048x1024 S1024x512 S2048x512 := dot_S2048x1024_S1024x512_S2048x512_1_0_0_1_n_n

theorem lhs1_row (i : S2048x1024.Idx) (q : dotW1.contr.Idx) : (dotW1.lhsIdx i q 0).val = (i 0).val := by
  unfold DotDims.lhsIdx
  rw [dif_neg (show ¬(0 : Fin S2048x512.rank) ∈ dotW1.lhsBatch by decide), dif_pos (show (0 : Fin S2048x512.rank) ∈ dotW1.lhsNonContracting by decide)]
  rfl
theorem lhs1_contr (i : S2048x1024.Idx) (q : dotW1.contr.Idx) : (dotW1.lhsIdx i q 1).val = (q ⟨0, by decide⟩).val :=
  dotW1.lhsIdx_val_of_single rfl i q
theorem rhs1_contr (i : S2048x1024.Idx) (q : dotW1.contr.Idx) : (dotW1.rhsIdx i q 0).val = (q ⟨0, by decide⟩).val :=
  dotW1.rhsIdx_val_of_single rfl i q
theorem rhs1_col (i : S2048x1024.Idx) (q : dotW1.contr.Idx) : (dotW1.rhsIdx i q 1).val = (i 1).val := by
  unfold DotDims.rhsIdx
  rw [dif_neg (show ¬(1 : Fin S512x1024.rank) ∈ dotW1.rhsBatch by decide), dif_pos (show (1 : Fin S512x1024.rank) ∈ dotW1.rhsNonContracting by decide)]
  rfl

/-- The first product into a zero accumulator, at row `r` and column `h`. -/
theorem matmul1_at (lhs : FVec Ideal S2048x512 .bf16) (rhs : FVec Ideal S512x1024 .bf16) (r : Fin 2048) (h : Fin 1024) :
    matmul dotW1 none lhs rhs (constant (F := Ideal) S2048x1024 .f32 0x00000000#32) (ix2 r h)
      = ∑ k : Fin 512, lhs (ix2 r k) * rhs (ix2 k h) := by
  simp only [matmul]
  rw [Ideal.matmul_constant_zero_apply, ← Equiv.sum_comp (contrEquiv1 dotW1 512 rfl rfl).symm]
  refine Finset.sum_congr rfl fun k _ => ?_
  have hk := contrEquiv1_symm_val dotW1 512 rfl rfl k
  have el : dotW1.lhsIdx (ix2 r h) ((contrEquiv1 dotW1 512 rfl rfl).symm k) = ix2 r k := funext fun a => Fin.ext (by
    match a with
    | ⟨0, _⟩ => exact lhs1_row _ _
    | ⟨1, _⟩ => exact (lhs1_contr _ _).trans hk)
  have er : dotW1.rhsIdx (ix2 r h) ((contrEquiv1 dotW1 512 rfl rfl).symm k) = ix2 k h := funext fun a => Fin.ext (by
    match a with
    | ⟨0, _⟩ => exact (rhs1_contr _ _).trans hk
    | ⟨1, _⟩ => exact rhs1_col _ _)
  rw [el, er]

theorem lhs2_row (i : S2048x512.Idx) (q : dotW2.contr.Idx) : (dotW2.lhsIdx i q 0).val = (i 0).val := by
  unfold DotDims.lhsIdx
  rw [dif_neg (show ¬(0 : Fin S2048x1024.rank) ∈ dotW2.lhsBatch by decide), dif_pos (show (0 : Fin S2048x1024.rank) ∈ dotW2.lhsNonContracting by decide)]
  rfl
theorem lhs2_contr (i : S2048x512.Idx) (q : dotW2.contr.Idx) : (dotW2.lhsIdx i q 1).val = (q ⟨0, by decide⟩).val :=
  dotW2.lhsIdx_val_of_single rfl i q
theorem rhs2_contr (i : S2048x512.Idx) (q : dotW2.contr.Idx) : (dotW2.rhsIdx i q 0).val = (q ⟨0, by decide⟩).val :=
  dotW2.rhsIdx_val_of_single rfl i q
theorem rhs2_col (i : S2048x512.Idx) (q : dotW2.contr.Idx) : (dotW2.rhsIdx i q 1).val = (i 1).val := by
  unfold DotDims.rhsIdx
  rw [dif_neg (show ¬(1 : Fin S1024x512.rank) ∈ dotW2.rhsBatch by decide), dif_pos (show (1 : Fin S1024x512.rank) ∈ dotW2.rhsNonContracting by decide)]
  rfl

/-- The second product into a zero accumulator, at row `r` and column `d`. -/
theorem matmul2_at (lhs : FVec Ideal S2048x1024 .bf16) (rhs : FVec Ideal S1024x512 .bf16) (r : Fin 2048) (d : Fin 512) :
    matmul dotW2 none lhs rhs (constant (F := Ideal) S2048x512 .f32 0x00000000#32) (ix2 r d)
      = ∑ h : Fin 1024, lhs (ix2 r h) * rhs (ix2 h d) := by
  simp only [matmul]
  rw [Ideal.matmul_constant_zero_apply, ← Equiv.sum_comp (contrEquiv1 dotW2 1024 rfl rfl).symm]
  refine Finset.sum_congr rfl fun k _ => ?_
  have hk := contrEquiv1_symm_val dotW2 1024 rfl rfl k
  have el : dotW2.lhsIdx (ix2 r d) ((contrEquiv1 dotW2 1024 rfl rfl).symm k) = ix2 r k := funext fun a => Fin.ext (by
    match a with
    | ⟨0, _⟩ => exact lhs2_row _ _
    | ⟨1, _⟩ => exact (lhs2_contr _ _).trans hk)
  have er : dotW2.rhsIdx (ix2 r d) ((contrEquiv1 dotW2 1024 rfl rfl).symm k) = ix2 k d := funext fun a => Fin.ext (by
    match a with
    | ⟨0, _⟩ => exact (rhs2_contr _ _).trans hk
    | ⟨1, _⟩ => exact rhs2_col _ _)
  rw [el, er]

/-! ## The stages of the body -/

variable (x0 : FVec Ideal S1x32x512 .f32) (x1 : FVec Ideal S1x64x512 .f32) (x2 : FVec Ideal S512x1024 .bf16)
  (x3 : FVec Ideal S1024 .f32) (x4 : FVec Ideal S1024x512 .bf16) (x5 : FVec Ideal S512 .f32)

/-- The joint vectors as the rows of a matrix: row `r = p · 64 + q` is source row `p` plus target row `q`. -/
def rows : FVec Ideal S2048x512 .bf16 :=
  shapeCast S2048x512 (truncf .bf16 (addf
    (broadcastTo S32x64x512 (shapeCast S32x1x512 (shapeCast S32x512 x0 shapeCasts_S1x32x512_S32x512) shapeCasts_S32x512_S32x1x512) broadcasts_S32x1x512_S32x64x512)
    (broadcastTo S32x64x512 (shapeCast S1x64x512 (shapeCast S64x512 x1 shapeCasts_S1x64x512_S64x512) shapeCasts_S64x512_S1x64x512) broadcasts_S1x64x512_S32x64x512))
    bitsLt_bf16_f32) shapeCasts_S32x64x512_S2048x512

theorem rows_at (r : Fin 2048) (p : Fin 32) (q : Fin 64) (k : Fin 512) (hr : r.val = p.val * 64 + q.val) :
    rows x0 x1 (ix2 r k) = x0 (ix3 (0 : Fin 1) p k) + x1 (ix3 (0 : Fin 1) q k) := by
  unfold rows
  refine (shapeCast_abc_nc_apply _ shapeCasts_S32x64x512_S2048x512 r p q k hr).trans ?_
  show (broadcastTo S32x64x512 _ broadcasts_S32x1x512_S32x64x512 (ix3 p q k) : EReal)
      + (broadcastTo S32x64x512 _ broadcasts_S1x64x512_S32x64x512 (ix3 p q k) : EReal) = _
  rw [broadcastTo_a1c_abc_apply, shapeCast_ac_a1c_apply, shapeCast_1ab_ab_apply,
    broadcastTo_1bc_abc_apply, shapeCast_ab_1ab_apply, shapeCast_1ab_ab_apply]

/-- The hidden layer: the rows times `W₁`, plus `b₁` on every row, through `tanh`. -/
def hiddenRows : FVec Ideal S2048x1024 .bf16 :=
  truncf .bf16 (tanh (addf
    (matmul dot_S2048x512_S512x1024_S2048x1024_1_0_0_1_n_n none (rows x0 x1) (shapeCast S512x1024 x2 shapeCasts_S512x1024_S512x1024) (constant S2048x1024 .f32 0x00000000#32))
    (broadcastTo S2048x1024 (shapeCast S1x1024 x3 shapeCasts_S1024_S1x1024) broadcasts_S1x1024_S2048x1024)))
    bitsLt_bf16_f32

theorem hiddenRows_at (r : Fin 2048) (p : Fin 32) (q : Fin 64) (h : Fin 1024) (hr : r.val = p.val * 64 + q.val) :
    hiddenRows x0 x1 x2 x3 (ix2 r h)
      = Ideal.tanh ((∑ k : Fin 512, (x0 (ix3 (0 : Fin 1) p k) + x1 (ix3 (0 : Fin 1) q k)) * x2 (ix2 k h)) + x3 (ix1 h)) := by
  unfold hiddenRows
  show Ideal.tanh (matmul dotW1 none (rows x0 x1) (shapeCast S512x1024 x2 shapeCasts_S512x1024_S512x1024)
        (constant (F := Ideal) S2048x1024 .f32 0x00000000#32) (ix2 r h)
      + broadcastTo S2048x1024 (shapeCast S1x1024 x3 shapeCasts_S1024_S1x1024) broadcasts_S1x1024_S2048x1024 (ix2 r h)) = _
  rw [matmul1_at, broadcastTo_1b_ab_apply, shapeCast_a_1a_apply, shapeCast_self]
  refine congrArg Ideal.tanh (congrArg (· + x3 (ix1 h)) (Finset.sum_congr rfl fun k _ => ?_))
  rw [rows_at x0 x1 r p q k hr]

/-- The stored value is the hidden rows times `W₂`, plus `b₂` on every row, folded back to `(p, q)`. -/
theorem pay_eq : k0_pay1 (F := Ideal) x0 x1 x2 x3 x4 x5
    = shapeCast S1x32x64x512 (shapeCast S32x64x512 (addf
        (matmul dot_S2048x1024_S1024x512_S2048x512_1_0_0_1_n_n none (hiddenRows x0 x1 x2 x3) (shapeCast S1024x512 x4 shapeCasts_S1024x512_S1024x512) (constant S2048x512 .f32 0x00000000#32))
        (broadcastTo S2048x512 (shapeCast S1x512 x5 shapeCasts_S512_S1x512) broadcasts_S1x512_S2048x512))
        shapeCasts_S2048x512_S32x64x512) shapeCasts_S32x64x512_S1x32x64x512 := rfl

/-- The body's stored value at `(z, p, q, d)` of its block, from the blocks it loaded. -/
theorem pay_at (z : Fin 1) (p : Fin 32) (q : Fin 64) (d : Fin 512) :
    k0_pay1 (F := Ideal) x0 x1 x2 x3 x4 x5 (ix4 z p q d)
      = (∑ h : Fin 1024, Ideal.tanh ((∑ k : Fin 512, (x0 (ix3 (0 : Fin 1) p k) + x1 (ix3 (0 : Fin 1) q k)) * x2 (ix2 k h)) + x3 (ix1 h))
            * x4 (ix2 h d)) + x5 (ix1 d) := by
  have hlt : p.val * 64 + q.val < 2048 := by have := p.isLt; have := q.isLt; omega
  rw [pay_eq]
  refine (shapeCast_abc_1abc_apply _ shapeCasts_S32x64x512_S1x32x64x512 z p q d).trans ?_
  refine (shapeCast_nc_abc_apply _ shapeCasts_S2048x512_S32x64x512 (⟨p.val * 64 + q.val, hlt⟩ : Fin 2048) p q d rfl).trans ?_
  show matmul dotW2 none (hiddenRows x0 x1 x2 x3) (shapeCast S1024x512 x4 shapeCasts_S1024x512_S1024x512)
        (constant (F := Ideal) S2048x512 .f32 0x00000000#32) (ix2 (⟨p.val * 64 + q.val, hlt⟩ : Fin 2048) d)
      + broadcastTo S2048x512 (shapeCast S1x512 x5 shapeCasts_S512_S1x512) broadcasts_S1x512_S2048x512 (ix2 (⟨p.val * 64 + q.val, hlt⟩ : Fin 2048) d) = _
  rw [matmul2_at, broadcastTo_1b_ab_apply, shapeCast_a_1a_apply, shapeCast_self]
  refine congrArg (· + x5 (ix1 d)) (Finset.sum_congr rfl fun h _ => ?_)
  rw [hiddenRows_at x0 x1 x2 x3 (⟨p.val * 64 + q.val, hlt⟩ : Fin 2048) p q h rfl]

end Cert.KernelIdeal.Body

end
-- ==== Proof.Spec.lean ====
/-
  The joint network, as one function of its six arrays.

  For a batch entry `b`, a source position `t`, a target position `u`, the joint vector is the sum of the source
  row `src[b, t, ·]` and the target row `tgt[b, u, ·]`. A hidden unit `h` is `tanh` of that vector's product with
  column `h` of `W₁` plus the bias `b₁[h]`; the result at feature `d` is the hidden vector's product with column `d`
  of `W₂` plus `b₂[d]`:

      out[b, t, u, d] = (Σ_h tanh((Σ_k (src[b, t, k] + tgt[b, u, k]) · W₁[k, h]) + b₁[h]) · W₂[h, d]) + b₂[d]

  on the extended reals, every operation the exact one. Both programs compute this with the sums in this order, so
  no law of the extended reals beyond reading each operation at an index joins them.
-/
import Idealize.ShloMosaic.PureOps.Ideal
import Idealize.ShloMosaic.Lib.ValueIdx

noncomputable section

namespace Cert.Joint

open Idealize.ShloMosaic Idealize.ShloMosaic.ValueIdx

/-- Hidden unit `h` for the source row `(b, t)` and the target row `(b, u)`. -/
def hidden (src : (⟨3, ![8, 256, 512]⟩ : Shape).Idx → EReal) (tgt : (⟨3, ![8, 64, 512]⟩ : Shape).Idx → EReal)
    (w1 : (⟨2, ![512, 1024]⟩ : Shape).Idx → EReal) (b1 : (⟨1, ![1024]⟩ : Shape).Idx → EReal)
    (b : Fin 8) (t : Fin 256) (u : Fin 64) (h : Fin 1024) : EReal :=
  Ideal.tanh ((∑ k : Fin 512, (src (ix3 b t k) + tgt (ix3 b u k)) * w1 (ix2 k h)) + b1 (ix1 h))

/-- Output feature `d` for the source row `(b, t)` and the target row `(b, u)`. -/
def outAt (src : (⟨3, ![8, 256, 512]⟩ : Shape).Idx → EReal) (tgt : (⟨3, ![8, 64, 512]⟩ : Shape).Idx → EReal)
    (w1 : (⟨2, ![512, 1024]⟩ : Shape).Idx → EReal) (b1 : (⟨1, ![1024]⟩ : Shape).Idx → EReal)
    (w2 : (⟨2, ![1024, 512]⟩ : Shape).Idx → EReal) (b2 : (⟨1, ![512]⟩ : Shape).Idx → EReal)
    (b : Fin 8) (t : Fin 256) (u : Fin 64) (d : Fin 512) : EReal :=
  (∑ h : Fin 1024, hidden src tgt w1 b1 b t u h * w2 (ix2 h d)) + b2 (ix1 d)

/-- The whole result array, index by index. -/
def joint (src : (⟨3, ![8, 256, 512]⟩ : Shape).Idx → EReal) (tgt : (⟨3, ![8, 64, 512]⟩ : Shape).Idx → EReal)
    (w1 : (⟨2, ![512, 1024]⟩ : Shape).Idx → EReal) (b1 : (⟨1, ![1024]⟩ : Shape).Idx → EReal)
    (w2 : (⟨2, ![1024, 512]⟩ : Shape).Idx → EReal) (b2 : (⟨1, ![512]⟩ : Shape).Idx → EReal) :
    (⟨4, ![8, 256, 64, 512]⟩ : Shape).Idx → EReal :=
  fun i => outAt src tgt w1 b1 w2 b2 (i 0) (i 1) (i 2) (i 3)

theorem joint_ix4 (src : (⟨3, ![8, 256, 512]⟩ : Shape).Idx → EReal) (tgt : (⟨3, ![8, 64, 512]⟩ : Shape).Idx → EReal)
    (w1 : (⟨2, ![512, 1024]⟩ : Shape).Idx → EReal) (b1 : (⟨1, ![1024]⟩ : Shape).Idx → EReal)
    (w2 : (⟨2, ![1024, 512]⟩ : Shape).Idx → EReal) (b2 : (⟨1, ![512]⟩ : Shape).Idx → EReal)
    (b : Fin 8) (t : Fin 256) (u : Fin 64) (d : Fin 512) :
    joint src tgt w1 b1 w2 b2 (ix4 b t u d) = outAt src tgt w1 b1 w2 b2 b t u d := rfl

end Cert.Joint

end
-- ==== Proof.Blocks.lean ====
/-
  From what each grid point writes back to the whole result array.

  The grid is 8 × 8: point `t` has a batch entry `β = index t 0` and a tile `θ = index t 1` of 32 source positions. It is
  handed source rows `src[β, 32·θ + p, ·]` (`p < 32`), all 64 target rows `tgt[β, q, ·]`, and the whole of `W₁`, `b₁`,
  `W₂`, `b₂` — the two weight matrices through a change of float format made before the launch, which on the
  extended reals changes nothing. Its stored value at `(0, p, q, d)` (Payload.lean) is therefore the joint network
  (Spec.lean) of the six argument arrays at `(β, 32·θ + p, q, d)`: the point writes back its own block of ONE
  whole-array function. The 64 blocks `[1, 32, 64, 512]` tile the `[8, 256, 64, 512]` array — index `(b, s, u, d)` lies in
  the block of the point with `β = b`, `θ = s / 32` — so after the run the array is that function.
-/
import proofs.«110016_j57526791962920_1_alg».proof.Proof.Gen.KernelIdeal.Value
import proofs.«110016_j57526791962920_1_alg».proof.Proof.Payload
import proofs.«110016_j57526791962920_1_alg».proof.Proof.Spec
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The result array: the joint network of the six float arguments as launched. -/
def result (c : Dev nD) : S8x256x64x512.Idx → EReal :=
  Cert.Joint.joint (m ((c : Thread nD τ).loc main_arg0)) (m ((c : Thread nD τ).loc main_arg2))
    (m ((c : Thread nD τ).loc main_arg4)) (m ((c : Thread nD τ).loc main_arg5))
    (m ((c : Thread nD τ).loc main_arg6)) (m ((c : Thread nD τ).loc main_arg7))

/-! ## The two arrays written before the launch -/

/-- `W₁` in the narrower format is `W₁`. -/
theorem V_w1 (c : Dev nD) :
    (V m c main_v0 : S512x1024.Idx → EReal) = (m ((c : Thread nD τ).loc main_arg4) : S512x1024.Idx → EReal) := by
  dsimp only [Gen.V, Gen.hostOps0]; after_results; rfl

/-- `W₂` in the narrower format is `W₂`. -/
theorem V_w2 (c : Dev nD) :
    (V m c main_v1 : S1024x512.Idx → EReal) = (m ((c : Thread nD τ).loc main_arg6) : S1024x512.Idx → EReal) := by
  dsimp only [Gen.V, Gen.hostOps0]; after_results; rfl

/-! ## The index maps over the grid -/

/-- The source window moves with the output on the batch and tile axes; the target window on the batch axis only; the
    weights and biases stay put; the output's last two block indices are zero and its first two below 8. -/
theorem idx_facts : ∀ t : Fin cfg0.N,
    win0_0.index t (0 : Fin 3) = win0_6.index t (0 : Fin 4) ∧ win0_0.index t (1 : Fin 3) = win0_6.index t (1 : Fin 4)
    ∧ win0_0.index t (2 : Fin 3) = 0
    ∧ win0_1.index t (0 : Fin 3) = win0_6.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (2 : Fin 4) = 0 ∧ win0_6.index t (3 : Fin 4) = 0
    ∧ win0_6.index t (0 : Fin 4) ≤ 7 ∧ win0_6.index t (1 : Fin 4) ≤ 7 :=
  (by decide +kernel : ∀ t : Fin grid0.N, _)

/-- Every (batch entry, tile) pair is some point's. -/
theorem idx_onto : ∀ (q0 : Fin 8) (q1 : Fin 8), ∃ t : Fin cfg0.N, win0_6.index t = ![q0.val, q1.val, 0, 0] :=
  (by decide +kernel : ∀ (q0 : Fin 8) (q1 : Fin 8), ∃ t : Fin grid0.N, win0_6.index t = ![q0.val, q1.val, 0, 0])

/-! ## Each input block, read where the output's block says -/

/-- The source block at point `t`: rows `32·θ + p` of batch entry `β`. -/
theorem src_blk (c : Dev nD) (t : Fin cfg0.N) (x : S1x32x512.Idx) (k : S8x256x512.Idx)
    (h0 : (k 0).val = win0_6.index t (0 : Fin 4)) (h1 : (k 1).val = win0_6.index t (1 : Fin 4) * 32 + (x 1).val)
    (h2 : (k 2).val = (x 2).val) :
    (iblk m c 0 t : Vec Ideal S1x32x512 .f32) x = (m ((c : Thread nD τ).loc main_arg0) : S8x256x512.Idx → EReal) k := by
  obtain ⟨e0, e1, e2, -⟩ := idx_facts t
  have hx0 : (x 0).val < 1 := (x 0).isLt
  unfold iblk
  rw [View.read_apply]
  show V m c main_arg0 _ = _
  rw [V_main_arg0]
  refine congrArg (m ((c : Thread nD τ).loc main_arg0) : S8x256x512.Idx → EReal) (funext fun a => Fin.ext ?_)
  match a with
  | ⟨0, _⟩ => show win0_0.index t (0 : Fin 3) * 1 + 1 * (x 0).val = (k 0).val; omega
  | ⟨1, _⟩ => show win0_0.index t (1 : Fin 3) * 32 + 1 * (x 1).val = (k 1).val; omega
  | ⟨2, _⟩ => show win0_0.index t (2 : Fin 3) * 512 + 1 * (x 2).val = (k 2).val; omega

/-- The target block at point `t`: all rows of batch entry `β`. -/
theorem tgt_blk (c : Dev nD) (t : Fin cfg0.N) (x : S1x64x512.Idx) (k : S8x64x512.Idx)
    (h0 : (k 0).val = win0_6.index t (0 : Fin 4)) (h1 : (k 1).val = (x 1).val) (h2 : (k 2).val = (x 2).val) :
    (iblk m c 1 t : Vec Ideal S1x64x512 .f32) x = (m ((c : Thread nD τ).loc main_arg2) : S8x64x512.Idx → EReal) k := by
  obtain ⟨-, -, -, e0, e1, e2, -⟩ := idx_facts t
  have hx0 : (x 0).val < 1 := (x 0).isLt
  unfold iblk
  rw [View.read_apply]
  show V m c main_arg2 _ = _
  rw [V_main_arg2]
  refine congrArg (m ((c : Thread nD τ).loc main_arg2) : S8x64x512.Idx → EReal) (funext fun a => Fin.ext ?_)
  match a with
  | ⟨0, _⟩ => show win0_1.index t (0 : Fin 3) * 1 + 1 * (x 0).val = (k 0).val; omega
  | ⟨1, _⟩ => show win0_1.index t (1 : Fin 3) * 64 + 1 * (x 1).val = (k 1).val; omega
  | ⟨2, _⟩ => show win0_1.index t (2 : Fin 3) * 512 + 1 * (x 2).val = (k 2).val; omega

/-- The `W₁` block is all of `W₁`. -/
theorem w1_blk (c : Dev nD) (t : Fin cfg0.N) (x : S512x1024.Idx) :
    (iblk m c 2 t : Vec Ideal S512x1024 .bf16) x = (m ((c : Thread nD τ).loc main_arg4) : S512x1024.Idx → EReal) x := by
  obtain ⟨-, -, -, -, -, -, e0, e1, -⟩ := idx_facts t
  unfold iblk
  rw [View.read_apply]
  show (V m c main_v0 : S512x1024.Idx → EReal) _ = _
  rw [V_w1]
  refine congrArg (m ((c : Thread nD τ).loc main_arg4) : S512x1024.Idx → EReal) (funext fun a => Fin.ext ?_)
  match a with
  | ⟨0, _⟩ => show win0_2.index t (0 : Fin 2) * 512 + 1 * (x 0).val = (x 0).val; omega
  | ⟨1, _⟩ => show win0_2.index t (1 : Fin 2) * 1024 + 1 * (x 1).val = (x 1).val; omega

/-- The `b₁` block is all of `b₁`. -/
theorem b1_blk (c : Dev nD) (t : Fin cfg0.N) (x : S1024.Idx) :
    (iblk m c 3 t : Vec Ideal S1024 .f32) x = (m ((c : Thread nD τ).loc main_arg5) : S1024.Idx → EReal) x := by
  obtain ⟨-, -, -, -, -, -, -, -, e0, -⟩ := idx_facts t
  unfold iblk
  rw [View.read_apply]
  show V m c main_arg5 _ = _
  rw [V_main_arg5]
  refine congrArg (m ((c : Thread nD τ).loc main_arg5) : S1024.Idx → EReal) (funext fun a => Fin.ext ?_)
  match a with
  | ⟨0, _⟩ => show win0_3.index t (0 : Fin 1) * 1024 + 1 * (x 0).val = (x 0).val; omega

/-- The `W₂` block is all of `W₂`. -/
theorem w2_blk (c : Dev nD) (t : Fin cfg0.N) (x : S1024x512.Idx) :
    (iblk m c 4 t : Vec Ideal S1024x512 .bf16) x = (m ((c : Thread nD τ).loc main_arg6) : S1024x512.Idx → EReal) x := by
  obtain ⟨-, -, -, -, -, -, -, -, -, e0, e1, -⟩ := idx_facts t
  unfold iblk
  rw [View.read_apply]
  show (V m c main_v1 : S1024x512.Idx → EReal) _ = _
  rw [V_w2]
  refine congrArg (m ((c : Thread nD τ).loc main_arg6) : S1024x512.Idx → EReal) (funext fun a => Fin.ext ?_)
  match a with
  | ⟨0, _⟩ => show win0_4.index t (0 : Fin 2) * 1024 + 1 * (x 0).val = (x 0).val; omega
  | ⟨1, _⟩ => show win0_4.index t (1 : Fin 2) * 512 + 1 * (x 1).val = (x 1).val; omega

/-- The `b₂` block is all of `b₂`. -/
theorem b2_blk (c : Dev nD) (t : Fin cfg0.N) (x : S512.Idx) :
    (iblk m c 5 t : Vec Ideal S512 .f32) x = (m ((c : Thread nD τ).loc main_arg7) : S512.Idx → EReal) x := by
  obtain ⟨-, -, -, -, -, -, -, -, -, -, -, e0, -⟩ := idx_facts t
  unfold iblk
  rw [View.read_apply]
  show V m c main_arg7 _ = _
  rw [V_main_arg7]
  refine congrArg (m ((c : Thread nD τ).loc main_arg7) : S512.Idx → EReal) (funext fun a => Fin.ext ?_)
  match a with
  | ⟨0, _⟩ => show win0_5.index t (0 : Fin 1) * 512 + 1 * (x 0).val = (x 0).val; omega

/-! ## What a point stores is its block of the result -/

/-- The body's stored value at index `y` of its block is the result array at the index `i` with the point's batch
    entry, source position `32·θ + y₁`, and `y`'s target position and feature. -/
theorem point_eq (c : Dev nD) (t : Fin cfg0.N) (y : S1x32x64x512.Idx) (i : S8x256x64x512.Idx)
    (h0 : (i 0).val = win0_6.index t (0 : Fin 4)) (h1 : (i 1).val = win0_6.index t (1 : Fin 4) * 32 + (y 1).val)
    (h2 : (i 2).val = (y 2).val) (h3 : (i 3).val = (y 3).val) :
    k0_pay1 (F := Ideal) (iblk m c 0 t) (iblk m c 1 t) (iblk m c 2 t) (iblk m c 3 t) (iblk m c 4 t) (iblk m c 5 t) y
      = result m c i := by
  obtain ⟨z, p, q, d, rfl⟩ : ∃ (z : Fin 1) (p : Fin 32) (q : Fin 64) (d : Fin 512), y = ix4 z p q d :=
    ⟨y 0, y 1, y 2, y 3, eq_ix4 y⟩
  obtain ⟨b, s, u, d', rfl⟩ : ∃ (b : Fin 8) (s : Fin 256) (u : Fin 64) (d' : Fin 512), i = ix4 b s u d' :=
    ⟨i 0, i 1, i 2, i 3, eq_ix4 i⟩
  have h0' : b.val = win0_6.index t (0 : Fin 4) := h0
  have h1' : s.val = win0_6.index t (1 : Fin 4) * 32 + p.val := h1
  have h2' : u.val = q.val := h2
  have h3' : d'.val = d.val := h3
  rw [Body.pay_at]
  unfold result
  rw [Cert.Joint.joint_ix4]
  unfold Cert.Joint.outAt Cert.Joint.hidden
  refine congrArg₂ (· + ·) (Finset.sum_congr rfl fun h _ => congrArg₂ (· * ·) (congrArg Ideal.tanh (congrArg₂ (· + ·)
    (Finset.sum_congr rfl fun k _ => congrArg₂ (· * ·) (congrArg₂ (· + ·) ?_ ?_) ?_) ?_)) ?_) ?_
  · exact src_blk m c t (ix3 (0 : Fin 1) p k) (ix3 b s k) h0' h1' rfl
  · exact tgt_blk m c t (ix3 (0 : Fin 1) q k) (ix3 b u k) h0' h2' rfl
  · exact w1_blk m c t (ix2 k h)
  · exact b1_blk m c t (ix1 h)
  · have e : (ix2 h d' : S1024x512.Idx) = ix2 h d := by rw [Fin.ext h3']
    rw [e]; exact w2_blk m c t (ix2 h d)
  · have e : (ix1 d' : S512.Idx) = ix1 d := by rw [Fin.ext h3']
    rw [e]; exact b2_blk m c t (ix1 d)

/-- WHAT POINT `t` WRITES BACK is block `t` of the result. -/
theorem flushed_eq (c : Dev nD) (t : Fin cfg0.N) :
    (dats m 0 c).flushed 6 t = ((cfg0.win 6).blk t).view.read (Elt Ideal) (result m c) := by
  obtain ⟨-, -, -, -, -, -, -, -, -, -, -, -, e2, e3, -⟩ := idx_facts t
  rw [Value.flushed6]
  unfold out0_6
  rw [View.canon_unit_zero hz4]
  simp only [View.ld_unit_zero (S := S1x32x512) hz3, View.ld_unit_zero (S := S1x64x512) hz3,
    View.ld_unit_zero (S := S512x1024) hz2, View.ld_unit_zero (S := S1024) hz1,
    View.ld_unit_zero (S := S1024x512) hz2, View.ld_unit_zero (S := S512) hz1]
  funext j
  rw [View.read_apply]
  have hj0 : (j 0).val < 1 := (j 0).isLt
  refine point_eq m c t _ _ ?_ ?_ ?_ ?_
  · show win0_6.index t (0 : Fin 4) * 1 + 1 * (j 0).val = win0_6.index t (0 : Fin 4); omega
  · show win0_6.index t (1 : Fin 4) * 32 + 1 * (j 1).val = win0_6.index t (1 : Fin 4) * 32 + (j 1).val; omega
  · show win0_6.index t (2 : Fin 4) * 64 + 1 * (j 2).val = (j 2).val; omega
  · show win0_6.index t (3 : Fin 4) * 512 + 1 * (j 3).val = (j 3).val; omega

/-! ## The blocks tile the array -/

/-- An index of the array is in point `t`'s block iff each coordinate is in the block's range on its axis. -/
theorem mem_blk (t : Fin cfg0.N) (i : S8x256x64x512.Idx) :
    i ∈ ((cfg0.win 6).blk t).view.set ↔ ∀ a : Fin 4, win0_6.index t a * S1x32x64x512.size a ≤ (i a).val
      ∧ (i a).val < win0_6.index t a * S1x32x64x512.size a + S1x32x64x512.size a := by
  show i ∈ ((View.whole main_v2).slice (win0_6.rect t)).set ↔ _
  rw [View.set_slice_whole, Rect.mem_set_unit]
  exact Iff.rfl

/-- Every index of the array is in some point's block: the point of its batch entry and of its source position's tile. -/
theorem covered (i : S8x256x64x512.Idx) :
    ∃ t : Fin cfg0.N, (cfg0.win 6).flush t = true ∧ i ∈ ((cfg0.win 6).blk t).view.set := by
  have hi0 : (i 0).val < 8 := (i 0).isLt
  have hi1 : (i 1).val < 256 := (i 1).isLt
  have hi2 : (i 2).val < 64 := (i 2).isLt
  have hi3 : (i 3).val < 512 := (i 3).isLt
  obtain ⟨t, ht⟩ := idx_onto ⟨(i 0).val, hi0⟩ ⟨(i 1).val / 32, by omega⟩
  have q0 : win0_6.index t (0 : Fin 4) = (i 0).val := congrFun ht 0
  have q1 : win0_6.index t (1 : Fin 4) = (i 1).val / 32 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 32 ≤ (i 1).val ∧ (i 1).val < win0_6.index t (1 : Fin 4) * 32 + 32; omega
  | ⟨2, _⟩ => show win0_6.index t (2 : Fin 4) * 64 ≤ (i 2).val ∧ (i 2).val < win0_6.index t (2 : Fin 4) * 64 + 64; omega
  | ⟨3, _⟩ => show win0_6.index t (3 : Fin 4) * 512 ≤ (i 3).val ∧ (i 3).val < win0_6.index t (3 : Fin 4) * 512 + 512; omega

/-- THE ARRAY after the run is the result. -/
theorem final (c : Dev nD) : (dats m 0 c).arrAt 6 cfg0.N = result m c :=
  (dats m 0 c).arrAt_eq_of_cover 6 (result m c) (fun t _ => flushed_eq m c t) covered

/-- The kernel's run: the result array at the joint network of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefIsJoint.lean ====
/-
  The reference program's result, read index by index, is the joint network of Spec.lean.

  The reference broadcasts the source rows along the target axis and the target rows along the source axis, adds
  them, contracts the feature axis with `W₁`, adds `b₁` broadcast along the three leading axes, applies `tanh`,
  contracts the hidden axis with `W₂`, and adds `b₂` broadcast likewise. Read at `(b, t, u, d)` each broadcast picks
  the coordinates it keeps, each contraction is the sum over its one contracted coordinate, and the host's `tanh`
  is the exact one: the formula of `Cert.Joint.outAt`, term for term.
-/
import proofs.«110016_j57526791962920_1_alg».proof.Proof.Gen.ReferenceIdeal.Read
import proofs.«110016_j57526791962920_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-! ## Where each stage reads its operands, in coordinates -/

/-- The first contraction's left operand at `(b, t, u, h)`, `k`: the joint vector's entry `(b, t, u, k)`. -/
theorem lidx5 (b : Fin 8) (t : Fin 256) (u : Fin 64) (h : Fin 1024) (k : Fin 512) :
    lidx_main_v5 (ix4 b t u h) k = ix4 b t u k :=
  funext fun a => Fin.ext (by match a with | ⟨0, _⟩ => rfl | ⟨1, _⟩ => rfl | ⟨2, _⟩ => rfl | ⟨3, _⟩ => rfl)

/-- Its right operand: `W₁[k, h]`. -/
theorem ridx5 (b : Fin 8) (t : Fin 256) (u : Fin 64) (h : Fin 1024) (k : Fin 512) :
    ridx_main_v5 (ix4 b t u h) k = ix2 k h :=
  funext fun a => Fin.ext (by match a with | ⟨0, _⟩ => rfl | ⟨1, _⟩ => rfl)

/-- The second contraction's left operand at `(b, t, u, d)`, `h`: the hidden entry `(b, t, u, h)`. -/
theorem lidx10 (b : Fin 8) (t : Fin 256) (u : Fin 64) (d : Fin 512) (h : Fin 1024) :
    lidx_main_v10 (ix4 b t u d) h = ix4 b t u h :=
  funext fun a => Fin.ext (by match a with | ⟨0, _⟩ => rfl | ⟨1, _⟩ => rfl | ⟨2, _⟩ => rfl | ⟨3, _⟩ => rfl)

/-- Its right operand: `W₂[h, d]`. -/
theorem ridx10 (b : Fin 8) (t : Fin 256) (u : Fin 64) (d : Fin 512) (h : Fin 1024) :
    ridx_main_v10 (ix4 b t u d) h = ix2 h d :=
  funext fun a => Fin.ext (by match a with | ⟨0, _⟩ => rfl | ⟨1, _⟩ => rfl)

/-- The source rows broadcast along the target axis: `(b, t, u, k)` reads `src[b, t, k]`. -/
theorem idx_src (b : Fin 8) (t : Fin 256) (u : Fin 64) (k : Fin 512) :
    idx_main_v0 (idx_main_v2 (ix4 b t u k)) = ix3 b t k :=
  funext fun a => Fin.ext (by match a with | ⟨0, _⟩ => rfl | ⟨1, _⟩ => rfl | ⟨2, _⟩ => rfl)

/-- The target rows broadcast along the source axis: `(b, t, u, k)` reads `tgt[b, u, k]`. -/
theorem idx_tgt (b : Fin 8) (t : Fin 256) (u : Fin 64) (k : Fin 512) :
    idx_main_v1 (idx_main_v3 (ix4 b t u k)) = ix3 b u k :=
  funext fun a => Fin.ext (by match a with | ⟨0, _⟩ => rfl | ⟨1, _⟩ => rfl | ⟨2, _⟩ => rfl)

/-- `b₁` broadcast along the leading axes: `(b, t, u, h)` reads `b₁[h]`. -/
theorem idx_b1 (b : Fin 8) (t : Fin 256) (u : Fin 64) (h : Fin 1024) :
    idx_main_v6 (idx_main_v7 (ix4 b t u h)) = ix1 h :=
  funext fun a => Fin.ext (by match a with | ⟨0, _⟩ => rfl)

/-- `b₂` broadcast along the leading axes: `(b, t, u, d)` reads `b₂[d]`. -/
theorem idx_b2 (b : Fin 8) (t : Fin 256) (u : Fin 64) (d : Fin 512) :
    idx_main_v11 (idx_main_v12 (ix4 b t u d)) = ix1 d :=
  funext fun a => Fin.ext (by match a with | ⟨0, _⟩ => rfl)

/-! ## The stages -/

variable (x0 : S8x256x512.Idx → EReal) (x2 : S8x64x512.Idx → EReal) (x4 : S512x1024.Idx → EReal)
  (x5 : S1024.Idx → EReal) (x6 : S1024x512.Idx → EReal) (x7 : S512.Idx → EReal)

/-- The joint vector: the sum of a source row and a target row. -/
theorem sum_at (b : Fin 8) (t : Fin 256) (u : Fin 64) (k : Fin 512) :
    val_main_v4 (F := Ideal) x0 x2 (ix4 b t u k) = x0 (ix3 b t k) + x2 (ix3 b u k) := by
  rw [val_main_v4_apply, val_main_v2_apply, val_main_v3_apply, val_main_v0_apply, val_main_v1_apply, idx_src, idx_tgt]
  rfl

/-- The hidden layer after `tanh`. -/
theorem hidden_at (b : Fin 8) (t : Fin 256) (u : Fin 64) (h : Fin 1024) :
    val_main_v9 (F := Ideal) x0 x2 x4 x5 (ix4 b t u h) = Cert.Joint.hidden x0 x2 x4 x5 b t u h := by
  rw [val_main_v9_apply, val_main_v8_apply, val_main_v5_apply, val_main_v7_apply, val_main_v6_apply, idx_b1]
  unfold Cert.Joint.hidden
  refine congrArg Ideal.tanh (congrArg (· + x5 (ix1 h)) (Finset.sum_congr rfl fun k _ => ?_))
  rw [lidx5, ridx5, sum_at]

/-- The reference's result array is the joint network of its arguments. -/
theorem result_eq_joint :
    val_main_v13 (F := Ideal) x0 x2 x4 x5 x6 x7 = Cert.Joint.joint x0 x2 x4 x5 x6 x7 := by
  funext i
  obtain ⟨b, t, u, d, rfl⟩ : ∃ (b : Fin 8) (t : Fin 256) (u : Fin 64) (d : Fin 512), i = ix4 b t u d :=
    ⟨i 0, i 1, i 2, i 3, eq_ix4 i⟩
  rw [Cert.Joint.joint_ix4, val_main_v13_apply, val_main_v10_apply, val_main_v12_apply, val_main_v11_apply, idx_b2]
  unfold Cert.Joint.outAt
  refine congrArg (· + x7 (ix1 d)) (Finset.sum_congr rfl fun h _ => ?_)
  rw [lidx10, ridx10, hidden_at]

end Cert.ReferenceIdeal.RefValue

end
-- ==== Proof.lean ====
/-
  A transducer's joint network, tiled over (batch entry, 32 source positions), against its plain formulation.

  Both programs compute, for batch entry `b`, source position `t`, target position `u` and feature `d`,

      out[b, t, u, d] = (Σ_h tanh((Σ_k (src[b, t, k] + tgt[b, u, k]) · W₁[k, h]) + b₁[h]) · W₂[h, d]) + b₂[d]

  and hand the two integer length vectors back unchanged. The kernel does it per tile: the 32 × 64 joint vectors of a
  tile as the rows of one matrix, two matrix products into zero accumulators with the operands narrowed to a shorter
  float format first, the biases added row by row. The reference does it on the whole arrays with two contractions.
  On the extended reals a change of float format is the identity, a product into a zero accumulator and a
  contraction are the same plain sum over the contracted coordinate, and both `tanh`s are the exact one; the sums
  are taken in the same order on both sides, so nothing about finiteness is needed and the precondition is never
  opened. The idealization rewrote no operation, so there is nothing to preserve.

  Spec.lean states the formula; RefIsJoint.lean reads the reference's result as it; Payload.lean reads the kernel
  body's stored value at an index of its block; Blocks.lean shows that this is the formula at the block's place in
  the array and that the 64 blocks tile the array. The three frames are the programs' generated runs.
-/
import proofs.«110016_j57526791962920_1_alg».proof.Defs
import proofs.«110016_j57526791962920_1_alg».proof.Proof.Gen.Kernel
import proofs.«110016_j57526791962920_1_alg».proof.Proof.Gen.Kernel.Skeleton
import proofs.«110016_j57526791962920_1_alg».proof.Proof.Gen.Kernel.Launch
import proofs.«110016_j57526791962920_1_alg».proof.Proof.Gen.Kernel.Points
import proofs.«110016_j57526791962920_1_alg».proof.Proof.Gen.Kernel.Frame
import proofs.«110016_j57526791962920_1_alg».proof.Proof.Gen.KernelIdeal
import proofs.«110016_j57526791962920_1_alg».proof.Proof.Gen.KernelIdeal.Skeleton
import proofs.«110016_j57526791962920_1_alg».proof.Proof.Gen.KernelIdeal.Launch
import proofs.«110016_j57526791962920_1_alg».proof.Proof.Gen.KernelIdeal.Points
import proofs.«110016_j57526791962920_1_alg».proof.Proof.Gen.KernelIdeal.Frame
import proofs.«110016_j57526791962920_1_alg».proof.Proof.Gen.ReferenceIdeal
import proofs.«110016_j57526791962920_1_alg».proof.Proof.Gen.Pre_finite_inputs
import proofs.«110016_j57526791962920_1_alg».proof.Proof.Gen.KernelIdeal.Value
import proofs.«110016_j57526791962920_1_alg».proof.Proof.Gen.ReferenceIdeal.Run
import proofs.«110016_j57526791962920_1_alg».proof.Proof.Gen.ReferenceIdeal.Read
import proofs.«110016_j57526791962920_1_alg».proof.Proof.Blocks
import proofs.«110016_j57526791962920_1_alg».proof.Proof.RefIsJoint
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- Both programs end with the joint network of the arguments in the float result and the two length vectors as
    they were. -/
theorem algebraic : Cert.algebraic_KernelIdeal_ReferenceIdeal := by
  intro m ρ m' ρ' _ hagree
  refine ⟨fun c => Cert.KernelIdeal.Whole.result m c,
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg3), ?_, ?_⟩
  · refine (θ_run Cert.KernelIdeal.defs _ _).mono (fun _ h c => ?_) (Cert.KernelIdeal.Whole.run m ρ)
    obtain ⟨hv, h0, h1, h2, h3, h4, h5, h6, h7⟩ := h c
    exact ⟨hv, h1, h3, h0, h1, h2, h3, h4, h5, h6, h7⟩
  · refine (θ_run Cert.ReferenceIdeal.defs _ _).mono (fun _ h c => ?_) (Cert.ReferenceIdeal.Value.run (F := Ideal) m' ρ')
    obtain ⟨hv, r1, r3, rest⟩ := h c
    obtain ⟨a0, a1, a2, a3, a4, a5, a6, a7⟩ := hagree c
    refine ⟨?_, r1.trans a1, r3.trans a3, rest⟩
    rw [hv, Cert.ReferenceIdeal.Read.val_main_v13_eq, Cert.ReferenceIdeal.RefValue.result_eq_joint, a0, a2, a4, a5, a6, a7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
